-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S48x1536 : Shape := ⟨2, ![48, 1536]⟩
abbrev S48 : Shape := ⟨1, ![48]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S48x1536 : S_.BroadcastsInDim S48x1536 (![] : Fin 0 → Fin S48x1536.rank)
  reducesTo_S48x1536_S_d0_1 : S48x1536.ReducesTo [0, 1] S_
  bcast_S_S48 : S_.BroadcastsInDim S48 (![] : Fin 0 → Fin S48.rank)
  reducesTo_S48_S_d0 : S48.ReducesTo [0] S_

variable [Facts]

def fn {F : FTy → Type} [FloatOps F] (main_arg0 : FVec F S4x512x768 .f32) (main_arg1 : FVec F S48x1536 .f32) (main_arg2 : FVec F S48 .f32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S48x1536 .f32 := Host.absf main_arg1
  let main_cst_0 : FVec F S_ .f32 := constant S_ .f32 0x7F800000#32
  let main_v5 : FVec F S48x1536 .f32 := broadcastInDim S48x1536 ![] bcast_S_S48x1536 main_cst_0
  let main_v6 : IVec S48x1536 1 := cmpf .olt main_v4 main_v5
  let main_c_1 : IVec S_ 1 := constantI S_ 1 1#1
  let main_v7 : IVec S_ 1 := (fun x v => Host.reduce IntOp.andi x v reducesTo_S48x1536_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S4x512x768 : Shape := ⟨3, ![4, 512, 768]⟩
abbrev S48x1536 : Shape := ⟨2, ![48, 1536]⟩
abbrev S48 : Shape := ⟨1, ![48]⟩
abbrev S48x768 : Shape := ⟨2, ![48, 768]⟩
abbrev S768x48 : Shape := ⟨2, ![768, 48]⟩
abbrev S4x512x48 : Shape := ⟨3, ![4, 512, 48]⟩
abbrev S1x128x768 : Shape := ⟨3, ![1, 128, 768]⟩
abbrev S1x128x48 : Shape := ⟨3, ![1, 128, 48]⟩
abbrev S128x768 : Shape := ⟨2, ![128, 768]⟩
abbrev S128x48 : Shape := ⟨2, ![128, 48]⟩
abbrev S4x1x24576 : Shape := ⟨3, ![4, 1, 24576]⟩
abbrev S1x48 : Shape := ⟨2, ![1, 48]⟩
abbrev S1x1x1x48 : Shape := ⟨4, ![1, 1, 1, 48]⟩
abbrev S1x1x128x48 : Shape := ⟨4, ![1, 1, 128, 48]⟩
abbrev S1x6144 : Shape := ⟨2, ![1, 6144]⟩
abbrev S4x512x24576 : Shape := ⟨3, ![4, 512, 24576]⟩
abbrev S1x1x6144 : Shape := ⟨3, ![1, 1, 6144]⟩
abbrev S1x128x6144 : Shape := ⟨3, ![1, 128, 6144]⟩
abbrev S128x6144 : Shape := ⟨2, ![128, 6144]⟩
abbrev S4x512x512x48 : Shape := ⟨4, ![4, 512, 512, 48]⟩

abbrev nBuf : Space → Nat
  | .hbm => 16
  | .vmem => 15
  | .smem => 0
  | _ => 0

abbrev bufTy : (tb : Table) → Fin (tcTables nBuf tb) → BufTy
  | .hbm, ⟨0, _⟩ => ⟨S4x512x768, .f32⟩
  | .hbm, ⟨1, _⟩ => ⟨S48x1536, .f32⟩
  | .hbm, ⟨2, _⟩ => ⟨S48, .f32⟩
  | .hbm, ⟨3, _⟩ => ⟨S48x768, .f32⟩
  | .hbm, ⟨4, _⟩ => ⟨S48x768, .f32⟩
  | .hbm, ⟨5, _⟩ => ⟨S768x48, .f32⟩
  | .hbm, ⟨6, _⟩ => ⟨S768x48, .f32⟩
  | .hbm, ⟨7, _⟩ => ⟨S4x512x48, .f32⟩
  | .hbm, ⟨8, _⟩ => ⟨S4x512x48, .f32⟩
  | .hbm, ⟨9, _⟩ => ⟨S4x1x24576, .f32⟩
  | .hbm, ⟨10, _⟩ => ⟨S1x48, .f32⟩
  | .hbm, ⟨11, _⟩ => ⟨S1x1x1x48, .f32⟩
  | .hbm, ⟨12, _⟩ => ⟨S1x1x128x48, .f32⟩
  | .hbm, ⟨13, _⟩ => ⟨S1x6144, .f32⟩
  | .hbm, ⟨14, _⟩ => ⟨S4x512x24576, .f32⟩
  | .hbm, ⟨15, _⟩ => ⟨S4x512x512x48, .f32⟩
  | .local _ .vmem, ⟨0, _⟩ => ⟨S1x128x768, .f32⟩
  | .local _ .vmem, ⟨1, _⟩ => ⟨S1x128x768, .f32⟩
  | .local _ .vmem, ⟨2, _⟩ => ⟨S768x48, .f32⟩
  | .local _ .vmem, ⟨3, _⟩ => ⟨S768x48, .f32⟩
  | .local _ .vmem, ⟨4, _⟩ => ⟨S1x128x48, .f32⟩
  | .local _ .vmem, ⟨5, _⟩ => ⟨S1x128x48, .f32⟩
  | .local _ .vmem, ⟨6, _⟩ => ⟨S1x128x48, .f32⟩
  | .local _ .vmem, ⟨7, _⟩ => ⟨S1x128x48, .f32⟩
  | .local _ .vmem, ⟨8, _⟩ => ⟨S1x128x48, .f32⟩
  | .local _ .vmem, ⟨9, _⟩ => ⟨S1x128x48, .f32⟩
  | .local _ .vmem, ⟨10, _⟩ => ⟨S1x1x6144, .f32⟩
  | .local _ .vmem, ⟨11, _⟩ => ⟨S1x1x6144, .f32⟩
  | .local _ .vmem, ⟨12, _⟩ => ⟨S1x6144, .f32⟩
  | .local _ .vmem, ⟨13, _⟩ => ⟨S1x128x6144, .f32⟩
  | .local _ .vmem, ⟨14, _⟩ => ⟨S1x128x6144, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x128x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x6144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x128x6144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  slices_S48x1536_S48x768_0_0 : S48x1536.Slices ![0, 0] S48x768
  slices_S48x1536_S48x768_0_768 : S48x1536.Slices ![0, 768] S48x768
  transposes_S48x768_S768x48_1_0 : S48x768.Transposes [1, 0] S768x48
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S768x48_S768x48_0_0 : ∀ a, (![0, 0] : Fin 2 → Nat) a + S768x48.size a ≤ S768x48.size a
  h_S768x48 : 0 < S768x48.numel
  shapeCasts_S768x48_S768x48 : S768x48.ShapeCasts S768x48
  inb_S1x128x48_S1x128x48_0_0_0 : ∀ a, (![0, 0, 0] : Fin 3 → Nat) a + S1x128x48.size a ≤ S1x128x48.size a
  h_S1x128x48 : 0 < S1x128x48.numel
  shapeCasts_S1x128x48_S128x48 : S1x128x48.ShapeCasts S128x48
  shapeCasts_S128x48_S1x128x48 : S128x48.ShapeCasts S1x128x48
  shapeCasts_S4x512x48_S4x1x24576 : S4x512x48.ShapeCasts S4x1x24576
  shapeCasts_S48_S1x48 : S48.ShapeCasts S1x48
  shapeCasts_S1x48_S1x1x1x48 : S1x48.ShapeCasts S1x1x1x48
  bcast_S1x1x1x48_S1x1x128x48_0_1_2_3 : S1x1x1x48.BroadcastsInDim S1x1x128x48 (![0, 1, 2, 3] : Fin 4 → Fin S1x1x128x48.rank)
  shapeCasts_S1x1x128x48_S1x6144 : S1x1x128x48.ShapeCasts S1x6144
  inb_S1x1x6144_S1x1x6144_0_0_0 : ∀ a, (![0, 0, 0] : Fin 3 → Nat) a + S1x1x6144.size a ≤ S1x1x6144.size a
  h_S1x1x6144 : 0 < S1x1x6144.numel
  shapeCasts_S1x1x6144_S1x6144 : S1x1x6144.ShapeCasts S1x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  concatenates_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x48_S128x6144_d1 : Shape.Concatenates (S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: S128x48 :: []) S128x6144 1
  broadcasts_S1x6144_S128x6144 : S1x6144.Broadcasts S128x6144
  inb_S1x128x6144_S1x128x6144_0_0_0 : ∀ a, (![0, 0, 0] : Fin 3 → Nat) a + S1x128x6144.size a ≤ S1x128x6144.size a
  h_S1x128x6144 : 0 < S1x128x6144.numel
  shapeCasts_S1x128x6144_S128x6144 : S1x128x6144.ShapeCasts S128x6144
  shapeCasts_S128x6144_S1x128x6144 : S128x6144.ShapeCasts S1x128x6144
  shapeCasts_S4x512x24576_S4x512x512x48 : S4x512x24576.ShapeCasts S4x512x512x48
  dot_S128x768_S768x48_S128x48_1_0_0_1_n_n_wf : DotDims.WF S128x768 S768x48 S128x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x512x768.size a
  hwx0_0 : ∀ i : grid0.Coords, EltTy.bits .f32 = 32 ∨ (Rect.block (s := S4x512x768) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x48.size a ≤ S768x48.size a
  hwx0_1 : ∀ i : grid0.Coords, EltTy.bits .f32 = 32 ∨ (Rect.block (s := S768x48) S768x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x48.size a ≤ S768x48.size a
  hwx0_2 : ∀ i : grid0.Coords, EltTy.bits .f32 = 32 ∨ (Rect.block (s := S768x48) S768x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x48.size a ≤ S4x512x48.size a
  hwx0_3 : ∀ i : grid0.Coords, EltTy.bits .f32 = 32 ∨ (Rect.block (s := S4x512x48) S1x128x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x48.size a ≤ S4x512x48.size a
  hwx0_4 : ∀ i : grid0.Coords, EltTy.bits .f32 = 32 ∨ (Rect.block (s := S4x512x48) S1x128x48.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x48.size a ≤ S4x512x48.size a
  hwx1_0 : ∀ i : grid1.Coords, EltTy.bits .f32 = 32 ∨ (Rect.block (s := S4x512x48) S1x128x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x6144.size a ≤ S4x1x24576.size a
  hwx1_1 : ∀ i : grid1.Coords, EltTy.bits .f32 = 32 ∨ (Rect.block (s := S4x1x24576) S1x1x6144.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x6144.size a ≤ S1x6144.size a
  hwx1_2 : ∀ i : grid1.Coords, EltTy.bits .f32 = 32 ∨ (Rect.block (s := S1x6144) S1x6144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x6144.size a ≤ S4x512x24576.size a
  hwx1_3 : ∀ i : grid1.Coords, EltTy.bits .f32 = 32 ∨ (Rect.block (s := S4x512x24576) S1x128x6144.size (cc1_transform_3 i) (hinb1_3 i)).WholeWords (EltTy.packing .f32)

variable [Facts₀]

def dot_S128x768_S768x48_S128x48_1_0_0_1_n_n : DotDims S128x768 S768x48 S128x48 where
  lhsContracting := [1]
  rhsContracting := [0]
  lhsNonContracting := [0]
  rhsNonContracting := [1]
  lhsBatch := []
  rhsBatch := []
  wf := dot_S128x768_S768x48_S128x48_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x128x48.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x128x48.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x128x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x6144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x6144.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128x6144.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x512x768 : Shape := ⟨3, ![4, 512, 768]⟩
abbrev S48x1536 : Shape := ⟨2, ![48, 1536]⟩
abbrev S48 : Shape := ⟨1, ![48]⟩
abbrev S48x768 : Shape := ⟨2, ![48, 768]⟩
abbrev S4x512x48 : Shape := ⟨3, ![4, 512, 48]⟩
abbrev S4x512x1x48 : Shape := ⟨4, ![4, 512, 1, 48]⟩
abbrev S4x1x512x48 : Shape := ⟨4, ![4, 1, 512, 48]⟩
abbrev S4x512x512x48 : Shape := ⟨4, ![4, 512, 512, 48]⟩
abbrev S1x1x1x48 : Shape := ⟨4, ![1, 1, 1, 48]⟩

abbrev nBuf : Space → Nat
  | .hbm => 15
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S48x1536, .f32⟩
  | .hbm, ⟨2, _⟩ => ⟨S48, .f32⟩
  | .hbm, ⟨3, _⟩ => ⟨S48x768, .f32⟩
  | .hbm, ⟨4, _⟩ => ⟨S48x768, .f32⟩
  | .hbm, ⟨5, _⟩ => ⟨S4x512x48, .f32⟩
  | .hbm, ⟨6, _⟩ => ⟨S4x512x48, .f32⟩
  | .hbm, ⟨7, _⟩ => ⟨S4x512x1x48, .f32⟩
  | .hbm, ⟨8, _⟩ => ⟨S4x1x512x48, .f32⟩
  | .hbm, ⟨9, _⟩ => ⟨S4x512x512x48, .f32⟩
  | .hbm, ⟨10, _⟩ => ⟨S4x512x512x48, .f32⟩
  | .hbm, ⟨11, _⟩ => ⟨S4x512x512x48, .f32⟩
  | .hbm, ⟨12, _⟩ => ⟨S1x1x1x48, .f32⟩
  | .hbm, ⟨13, _⟩ => ⟨S4x512x512x48, .f32⟩
  | .hbm, ⟨14, _⟩ => ⟨S4x512x512x48, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S48x1536_S48x768_0_0 : S48x1536.Slices ![0, 0] S48x768
  slices_S48x1536_S48x768_0_768 : S48x1536.Slices ![0, 768] S48x768
  bcast_S4x512x48_S4x512x1x48_0_1_3 : S4x512x48.BroadcastsInDim S4x512x1x48 (![0, 1, 3] : Fin 3 → Fin S4x512x1x48.rank)
  bcast_S4x512x48_S4x1x512x48_0_2_3 : S4x512x48.BroadcastsInDim S4x1x512x48 (![0, 2, 3] : Fin 3 → Fin S4x1x512x48.rank)
  bcast_S4x512x1x48_S4x512x512x48_0_1_2_3 : S4x512x1x48.BroadcastsInDim S4x512x512x48 (![0, 1, 2, 3] : Fin 4 → Fin S4x512x512x48.rank)
  bcast_S4x1x512x48_S4x512x512x48_0_1_2_3 : S4x1x512x48.BroadcastsInDim S4x512x512x48 (![0, 1, 2, 3] : Fin 4 → Fin S4x512x512x48.rank)
  bcast_S48_S1x1x1x48_3 : S48.BroadcastsInDim S1x1x1x48 (![3] : Fin 1 → Fin S1x1x1x48.rank)
  bcast_S1x1x1x48_S4x512x512x48_0_1_2_3 : S1x1x1x48.BroadcastsInDim S4x512x512x48 (![0, 1, 2, 3] : Fin 4 → Fin S4x512x512x48.rank)
  dot_S4x512x768_S48x768_S4x512x48_2_1_01_0_n_n_wf : DotDims.WF S4x512x768 S48x768 S4x512x48 [2] [1] [0, 1] [0] [] []

variable [Facts₀]

def dot_S4x512x768_S48x768_S4x512x48_2_1_01_0_n_n : DotDims S4x512x768 S48x768 S4x512x48 where
  lhsContracting := [2]
  rhsContracting := [1]
  lhsNonContracting := [0, 1]
  rhsNonContracting := [0]
  lhsBatch := []
  rhsBatch := []
  wf := dot_S4x512x768_S48x768_S4x512x48_2_1_01_0_n_n_wf

class Facts : Prop extends Facts₀ where

variable [Facts]
-- ==== Proof.KernelRun.lean ====
/-
  The idealized kernel's run with its result named.

  @main of the kernel is five segments: a stretch of host operations (the two halves of the weight
  matrix, each transposed), the projection call, a second stretch (the second projection flattened to
  rows of length 512·48, the bias tiled 128 times), the broadcast-add call, and one reshape of its output.
  The buffer contents at each boundary are a fold from the launch memory: after a host stretch the
  operations applied, after a call its output arrays at what the write-backs leave. Every weakly fair
  execution terminates in a state whose unscoped buffers hold the last boundary's contents; read at
  the result buffer that gives the result as the fold's value there, and read at an argument buffer
  the argument as launched.
-/
import proofs.«142698_j15977278341601_2_alg».proof.Proof.Gen.KernelIdeal.Frame

set_option maxRecDepth 16384

noncomputable section

namespace Cert.KernelIdeal.PairHead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and the three arguments as launched. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.PairHead

end
-- ==== Proof.HostStages.lean ====
/-
  The buffers at the boundaries of the kernel's host stretches, as the operations' terms.

  Before the projection call the host slices the weights into their two 48 × 768 halves and transposes each; the
  hidden states are untouched. Between the calls it flattens the second projection [4, 512, 48] to [4, 1, 24576]
  (row-major, so entry (b, 0, 48·s + c) is entry (b, s, c)), and tiles the bias: [48] → [1, 48] → [1, 1, 1, 48],
  broadcast along a new axis of 128, flattened to [1, 6144] (entry (0, 48·s + c) is the bias of class c); the first
  projection is untouched. After the broadcast-add call it reshapes the output [4, 512, 24576] to [4, 512, 512, 48].
  Each call's output arrays are what its write-backs leave.
-/
import proofs.«142698_j15977278341601_2_alg».proof.Proof.Gen.KernelIdeal.Frame
import Idealize.ShloMosaic.Lib.StableHlo.Run
import Idealize.ShloMosaic.PureOps.Ideal

set_option maxRecDepth 16384

noncomputable section

namespace Cert.KernelIdeal.PairHead

open Idealize.ShloMosaic Idealize.ShloMosaic.TcCoe
open Idealize.SL Idealize.SL.Sem
open Idealize.ShloMosaic.StableHlo
open Cert.KernelIdeal Cert.KernelIdeal.Gen

variable (m : (ℓ : Loc nD τ sig) → Buf (Elt Ideal) ℓ) (ρ : Dev nD → PrngReg)

/-! ## Before the projection call -/

/-- The hidden states are as launched. -/
theorem hidden_at_proj (c : Dev nD) : V1 m ρ c main_arg0 = m ((c : Thread nD τ).loc main_arg0) := by
  show StableHlo.after hostOps0 (W0 m ρ c) (Proc.devRef .tc main_arg0) = _
  after_results
  try rfl

/-- The first weights: the first 768 columns, transposed. -/
theorem wrow_at_proj (c : Dev nD) :
    V1 m ρ c main_v2 = transpose S768x48 [1, 0]
      (extractStridedSlice S48x768 ![0, 0] (m ((c : Thread nD τ).loc main_arg1)) slices_S48x1536_S48x768_0_0) transposes_S48x768_S768x48_1_0 := by
  show StableHlo.after hostOps0 (W0 m ρ c) (Proc.devRef .tc main_v2) = _
  after_results
  try rfl

/-- The second weights: the last 768 columns, transposed. -/
theorem wcol_at_proj (c : Dev nD) :
    V1 m ρ c main_v3 = transpose S768x48 [1, 0]
      (extractStridedSlice S48x768 ![0, 768] (m ((c : Thread nD τ).loc main_arg1)) slices_S48x1536_S48x768_0_768) transposes_S48x768_S768x48_1_0 := by
  show StableHlo.after hostOps0 (W0 m ρ c) (Proc.devRef .tc main_v3) = _
  after_results
  try rfl

/-! ## Between the calls -/

/-- The bias is as launched when the projection call returns. -/
theorem bias_after_proj (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
  try rfl

/-- The first projection enters the second call as the first call left it. -/
theorem rowproj_at_pair (c : Dev nD) : V3 m ρ c main_v4_0 = (dat0 (V1 m ρ) c).arrAt 3 cfg0.N := by
  show StableHlo.after hostOps1 (W2 m ρ c) (Proc.devRef .tc main_v4_0) = _
  after_results
  exact W2_arr m ρ c 3

/-- The second projection enters the second call flattened. -/
theorem colflat_at_pair (c : Dev nD) :
    V3 m ρ c main_v5 = shapeCast S4x1x24576 ((dat0 (V1 m ρ) c).arrAt 4 cfg0.N) shapeCasts_S4x512x48_S4x1x24576 := by
  show StableHlo.after hostOps1 (W2 m ρ c) (Proc.devRef .tc main_v5) = _
  after_results
  rw [show W2 m ρ c (Proc.devRef .tc main_v4_1) = (dat0 (V1 m ρ) c).arrAt 4 cfg0.N from W2_arr m ρ c 4]
  try rfl

/-- The bias enters the second call tiled 128 times along the lanes. -/
theorem biastile_at_pair (c : Dev nD) :
    V3 m ρ c main_v9 = shapeCast S1x6144 (broadcastInDim S1x1x128x48 ![0, 1, 2, 3] bcast_S1x1x1x48_S1x1x128x48_0_1_2_3
      (shapeCast S1x1x1x48 (shapeCast S1x48 (m ((c : Thread nD τ).loc main_arg2)) shapeCasts_S48_S1x48) shapeCasts_S1x48_S1x1x1x48))
      shapeCasts_S1x1x128x48_S1x6144 := by
  show StableHlo.after hostOps1 (W2 m ρ c) (Proc.devRef .tc main_v9) = _
  after_results
  rw [bias_after_proj m ρ c]
  try rfl

/-! ## After the broadcast-add call -/

/-- The result: the second call's output, its lanes split into columns and classes. -/
theorem result_at_exit (c : Dev nD) :
    W5 m ρ c (Proc.devRef .tc main_v11)
      = shapeCast S4x512x512x48 ((dat1 (V3 m ρ) c).arrAt 3 cfg1.N) shapeCasts_S4x512x24576_S4x512x512x48 := by
  show StableHlo.after hostOps2 (W4 m ρ c) (Proc.devRef .tc main_v11) = _
  after_results
  rw [show W4 m ρ c (Proc.devRef .tc main_v10) = (dat1 (V3 m ρ) c).arrAt 3 cfg1.N from W4_arr m ρ c 3]
  try rfl

end Cert.KernelIdeal.PairHead

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.ProjBody.lean ====
/-
  The projection call's body at one entry of its block.

  The body loads a block of 128 rows of hidden states (as a [1, 128, 768] vector) and one 768 × 48 matrix of
  weights, rounds both to bf16 (the identity over the extended reals), multiplies them into a zero accumulator and
  stores the product as a [1, 128, 48] block. The product is a plain matrix product, so entry (r, c) of what is
  stored is ∑ₖ x[0, r, k] · w[k, c], the sum over the 768 features; the zero accumulator adds nothing. The body
  does this twice, once per half of the weights, with the same text.
-/
import proofs.«142698_j15977278341601_2_alg».proof.Proof.Gen.KernelIdeal.Skeleton
import proofs.«142698_j15977278341601_2_alg».proof.Proof.LibMatmulPlain
import Idealize.ShloMosaic.Lib.Pipeline.Value
import Idealize.ShloMosaic.Lib.ValueLayout
import Idealize.ShloMosaic.Lib.ValueIdx

noncomputable section

namespace Cert.KernelIdeal.PairHead

open Cert.KernelIdeal Cert.KernelIdeal.Gen Idealize.ShloMosaic Idealize.ShloMosaic.ValueIdx
open scoped BigOperators

/-- The body's matrix product contracts the left operand's columns against the right operand's rows. -/
theorem dot_plain : MatmulPlain.IsPlain dot_S128x768_S768x48_S128x48_1_0_0_1_n_n := ⟨rfl, rfl, rfl, rfl, rfl, rfl⟩

/-- Entry (r, c) of the first stored block: row r of the loaded hidden states against column c of the weights. -/
theorem proj_payload (x : Vec Ideal S1x128x768 .f32) (w : Vec Ideal S768x48 .f32) (u : Fin 1) (r : Fin 128) (c : Fin 48) :
    k0_pay2 (F := Ideal) x w (ix3 u r c) = ∑ k : Fin 768, x (ix3 (0 : Fin 1) r k) * w (ix2 k c) := by
  unfold k0_pay2 k0_pay1
  refine (shapeCast_ab_1ab_apply _ _ u r c).trans ?_
  refine (MatmulPlain.matmul_zero_apply dot_plain none _ _ r c).trans ?_
  refine Finset.sum_congr rfl fun k _ => ?_
  show (shapeCast S128x768 x shapeCasts_S1x128x768_S128x768) (ix2 r k) * (shapeCast S768x48 w shapeCasts_S768x48_S768x48) (ix2 k c) = _
  rw [shapeCast_1ab_ab_apply, shapeCast_self]

/-- The second stored block is the same function of the hidden states and the other weights. -/
theorem proj_payload' (x : Vec Ideal S1x128x768 .f32) (w : Vec Ideal S768x48 .f32) (u : Fin 1) (r : Fin 128) (c : Fin 48) :
    k0_pay3 (F := Ideal) x w (ix3 u r c) = ∑ k : Fin 768, x (ix3 (0 : Fin 1) r k) * w (ix2 k c) :=
  proj_payload x w u r c

end Cert.KernelIdeal.PairHead

end
-- ==== Proof.ProjArray.lean ====
/-
  The projection call: from what each grid point writes back to the two whole arrays.

  The call runs over 4 × 4 points; point (b, i) stages rows 128·i … 128·i + 127 of batch b of the hidden states and
  both 768 × 48 weight matrices whole, and writes back rows 128·i … of batch b of each projection. By the body's
  entry formula the block written back is the corresponding block of ONE whole-array function,

      projArr x w [b, l, c] = ∑ₖ x[b, l, k] · w[k, c],

  and the sixteen blocks tile the [4, 512, 48] array (entry (b, l, c) lies in the block of point (b, l / 128)), so
  after the call each projection's array is that function of the hidden states and its weights, whatever the
  contents the call is entered with.
-/
import proofs.«142698_j15977278341601_2_alg».proof.Proof.Gen.KernelIdeal.Frame
import proofs.«142698_j15977278341601_2_alg».proof.Proof.ProjBody

set_option maxRecDepth 16384

noncomputable section

namespace Cert.KernelIdeal.PairHead

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- Hidden states against a 768 × 48 matrix of weights, contracted over the features. -/
def projArr (x : S4x512x768.Idx → EReal) (w : S768x48.Idx → EReal) : S4x512x48.Idx → EReal :=
  fun i => ∑ k : Fin 768, x (ix3 (i 0) (i 1) k) * w (ix2 k (i 2))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's entry formula at an index of the stored block given as a whole. -/
theorem proj_payload_idx (x : Vec Ideal S1x128x768 .f32) (w : Vec Ideal S768x48 .f32) (j : S1x128x48.Idx) :
    k0_pay2 (F := Ideal) x w j = ∑ k : Fin 768, x (ix3 (0 : Fin 1) (j 1) k) * w (ix2 k (j 2)) :=
  (congrArg (k0_pay2 (F := Ideal) x w) (eq_ix3 j)).trans (proj_payload x w (j 0) (j 1) (j 2))

theorem proj_payload_idx' (x : Vec Ideal S1x128x768 .f32) (w : Vec Ideal S768x48 .f32) (j : S1x128x48.Idx) :
    k0_pay3 (F := Ideal) x w j = ∑ k : Fin 768, x (ix3 (0 : Fin 1) (j 1) k) * w (ix2 k (j 2)) :=
  (congrArg (k0_pay3 (F := Ideal) x w) (eq_ix3 j)).trans (proj_payload' x w (j 0) (j 1) (j 2))

/-- A stored block's entry is the whole-array function's entry as soon as the loaded blocks read the two arrays where
    the whole-array function does. -/
theorem proj_block_entry_eq (X : Vec Ideal S1x128x768 .f32) (W : Vec Ideal S768x48 .f32)
    (x : S4x512x768.Idx → EReal) (w : S768x48.Idx → EReal) (j : S1x128x48.Idx) (i : S4x512x48.Idx)
    (hX : ∀ k : Fin 768, X (ix3 (0 : Fin 1) (j 1) k) = x (ix3 (i 0) (i 1) k))
    (hW : ∀ k : Fin 768, W (ix2 k (j 2)) = w (ix2 k (i 2))) :
    k0_pay2 (F := Ideal) X W j = projArr x w i := by
  rw [proj_payload_idx]
  exact Finset.sum_congr rfl fun k _ => by rw [hX k, hW k]

theorem proj_block_entry_eq' (X : Vec Ideal S1x128x768 .f32) (W : Vec Ideal S768x48 .f32)
    (x : S4x512x768.Idx → EReal) (w : S768x48.Idx → EReal) (j : S1x128x48.Idx) (i : S4x512x48.Idx)
    (hX : ∀ k : Fin 768, X (ix3 (0 : Fin 1) (j 1) k) = x (ix3 (i 0) (i 1) k))
    (hW : ∀ k : Fin 768, W (ix2 k (j 2)) = w (ix2 k (i 2))) :
    k0_pay3 (F := Ideal) X W j = projArr x w i := by
  rw [proj_payload_idx']
  exact Finset.sum_congr rfl fun k _ => by rw [hX k, hW k]

/-- The printed index maps over the grid: the hidden states' block moves with the output blocks on the batch and
    row-block axes, the weights' blocks and every last-axis block index stay at zero. -/
theorem block_index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0
    ∧ win0_4.index t (0 : Fin 3) = win0_3.index t (0 : Fin 3)
    ∧ win0_4.index t (1 : Fin 3) = win0_3.index t (1 : Fin 3)
    ∧ win0_4.index t (2 : Fin 3) = 0 :=
  (by decide +kernel : ∀ t : Fin grid0.N, _)

/-- Every (batch, row block) is some point's, for both outputs. -/
theorem block_onto : ∀ (q0 : Fin 4) (q1 : Fin 4), ∃ t : Fin cfg0.N,
    win0_3.index t = ![q0.val, q1.val, 0] ∧ win0_4.index t = ![q0.val, q1.val, 0] :=
  (by decide +kernel : ∀ (q0 : Fin 4) (q1 : Fin 4), ∃ t : Fin grid0.N,
    win0_3.index t = ![q0.val, q1.val, 0] ∧ win0_4.index t = ![q0.val, q1.val, 0])

/-- What point `t` writes back to the first projection's array is block `t` of `projArr` of the hidden states and the
    first transposed weights as the call finds them: the point's block of hidden states is the 128 rows the output block names, and
    the weights are staged whole. -/
theorem flushed_row_eq (c : Dev nD) (t : Fin cfg0.N) :
    (dat0 V c).flushed 3 t = ((cfg0.win 3).blk t).view.read (Elt Ideal) (projArr (V c main_arg0) (V c main_v2)) := by
  show (cfg0.win 3).cut (grid0.coords t) ((dat0 V c).after 3 t) = _
  rw [after0_3]
  unfold out0_3
  rw [View.canon_unit_zero zeros3]
  simp only [View.ld_unit_zero (S := S1x128x768) zeros3, View.ld_unit_zero (S := S768x48) zeros2]
  obtain ⟨e00, e01, e02, e10, e11, e20, e21, e32, e40, e41, e42⟩ := block_index_facts t
  funext j
  show k0_pay2 (iblk0 V c 0 t) (iblk0 V c 1 t) j
    = projArr (V c main_arg0) (V c main_v2) (((cfg0.win 3).blk t).view.emb j)
  refine proj_block_entry_eq (iblk0 V c 0 t) (iblk0 V c 1 t) (V c main_arg0) (V c main_v2) j
    (((cfg0.win 3).blk t).view.emb j) (fun k => ?_) (fun k => ?_)
  · show V c main_arg0 (((cfg0.win 0).blk t).view.emb (ix3 (0 : Fin 1) (j 1) k)) = _
    refine congrArg (V c main_arg0) (funext fun a => Fin.ext ?_)
    match a with
    | ⟨0, _⟩ => show win0_0.index t (0 : Fin 3) * 1 + 1 * 0 = win0_3.index t (0 : Fin 3) * 1 + 1 * (j 0).val; have hj : (j 0).val < 1 := (j 0).isLt; omega
    | ⟨1, _⟩ => show win0_0.index t (1 : Fin 3) * 128 + 1 * (j 1).val = win0_3.index t (1 : Fin 3) * 128 + 1 * (j 1).val; omega
    | ⟨2, _⟩ => show win0_0.index t (2 : Fin 3) * 768 + 1 * k.val = k.val; omega
  · show V c main_v2 (((cfg0.win 1).blk t).view.emb (ix2 k (j 2))) = _
    refine congrArg (V c main_v2) (funext fun a => Fin.ext ?_)
    match a with
    | ⟨0, _⟩ => show win0_1.index t (0 : Fin 2) * 768 + 1 * k.val = k.val; omega
    | ⟨1, _⟩ => show win0_1.index t (1 : Fin 2) * 48 + 1 * (j 2).val = win0_3.index t (2 : Fin 3) * 48 + 1 * (j 2).val; omega

/-- An index of the first projection's array is in point `t`'s block iff each coordinate is in the block's range on its axis. -/
theorem mem_row_block (t : Fin cfg0.N) (i : S4x512x48.Idx) :
    i ∈ ((cfg0.win 3).blk t).view.set ↔ ∀ a : Fin 3, win0_3.index t a * S1x128x48.size a ≤ (i a).val ∧ (i a).val < win0_3.index t a * S1x128x48.size a + S1x128x48.size a := by
  show i ∈ ((View.whole main_v4_0).slice (win0_3.rect t)).set ↔ _
  rw [View.set_slice_whole, Rect.mem_set_unit]
  exact Iff.rfl

/-- Every entry (b, l, c) lies in the block of the point (b, l / 128). -/
theorem row_cover (i : S4x512x48.Idx) : ∃ t : Fin cfg0.N, (cfg0.win 3).flush t = true ∧ i ∈ ((cfg0.win 3).blk t).view.set := by
  have h0 : (i 0).val < 4 := (i 0).isLt
  have h1 : (i 1).val < 512 := (i 1).isLt
  have h2 : (i 2).val < 48 := (i 2).isLt
  obtain ⟨t, ht3, ht4⟩ := block_onto ⟨(i 0).val, h0⟩ ⟨(i 1).val / 128, by omega⟩
  have q0 : win0_3.index t (0 : Fin 3) = (i 0).val := congrFun ht3 0
  have q1 : win0_3.index t (1 : Fin 3) = (i 1).val / 128 := congrFun ht3 1
  have q2 : win0_3.index t (2 : Fin 3) = 0 := congrFun ht3 2
  refine ⟨t, flush0_3 t, ?_⟩
  rw [mem_row_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 48 ≤ (i 2).val ∧ (i 2).val < win0_3.index t (2 : Fin 3) * 48 + 48; omega

/-- After the call the first projection's array holds `projArr` of the hidden states and the first transposed weights. -/
theorem row_array (c : Dev nD) : (dat0 V c).arrAt 3 cfg0.N = projArr (V c main_arg0) (V c main_v2) :=
  (dat0 V c).arrAt_eq_of_cover 3 _ (fun t _ => flushed_row_eq V c t) row_cover

/-- What point `t` writes back to the second projection's array is block `t` of `projArr` of the hidden states and the
    second transposed weights as the call finds them: the point's block of hidden states is the 128 rows the output block names, and
    the weights are staged whole. -/
theorem flushed_col_eq (c : Dev nD) (t : Fin cfg0.N) :
    (dat0 V c).flushed 4 t = ((cfg0.win 4).blk t).view.read (Elt Ideal) (projArr (V c main_arg0) (V c main_v3)) := by
  show (cfg0.win 4).cut (grid0.coords t) ((dat0 V c).after 4 t) = _
  rw [after0_4]
  unfold out0_4
  rw [View.canon_unit_zero zeros3]
  simp only [View.ld_unit_zero (S := S1x128x768) zeros3, View.ld_unit_zero (S := S768x48) zeros2]
  obtain ⟨e00, e01, e02, e10, e11, e20, e21, e32, e40, e41, e42⟩ := block_index_facts t
  funext j
  show k0_pay3 (iblk0 V c 0 t) (iblk0 V c 2 t) j
    = projArr (V c main_arg0) (V c main_v3) (((cfg0.win 4).blk t).view.emb j)
  refine proj_block_entry_eq' (iblk0 V c 0 t) (iblk0 V c 2 t) (V c main_arg0) (V c main_v3) j
    (((cfg0.win 4).blk t).view.emb j) (fun k => ?_) (fun k => ?_)
  · show V c main_arg0 (((cfg0.win 0).blk t).view.emb (ix3 (0 : Fin 1) (j 1) k)) = _
    refine congrArg (V c main_arg0) (funext fun a => Fin.ext ?_)
    match a with
    | ⟨0, _⟩ => show win0_0.index t (0 : Fin 3) * 1 + 1 * 0 = win0_4.index t (0 : Fin 3) * 1 + 1 * (j 0).val; have hj : (j 0).val < 1 := (j 0).isLt; omega
    | ⟨1, _⟩ => show win0_0.index t (1 : Fin 3) * 128 + 1 * (j 1).val = win0_4.index t (1 : Fin 3) * 128 + 1 * (j 1).val; omega
    | ⟨2, _⟩ => show win0_0.index t (2 : Fin 3) * 768 + 1 * k.val = k.val; omega
  · show V c main_v3 (((cfg0.win 2).blk t).view.emb (ix2 k (j 2))) = _
    refine congrArg (V c main_v3) (funext fun a => Fin.ext ?_)
    match a with
    | ⟨0, _⟩ => show win0_2.index t (0 : Fin 2) * 768 + 1 * k.val = k.val; omega
    | ⟨1, _⟩ => show win0_2.index t (1 : Fin 2) * 48 + 1 * (j 2).val = win0_4.index t (2 : Fin 3) * 48 + 1 * (j 2).val; omega

/-- An index of the second projection's array is in point `t`'s block iff each coordinate is in the block's range on its axis. -/
theorem mem_col_block (t : Fin cfg0.N) (i : S4x512x48.Idx) :
    i ∈ ((cfg0.win 4).blk t).view.set ↔ ∀ a : Fin 3, win0_4.index t a * S1x128x48.size a ≤ (i a).val ∧ (i a).val < win0_4.index t a * S1x128x48.size a + S1x128x48.size a := by
  show i ∈ ((View.whole main_v4_1).slice (win0_4.rect t)).set ↔ _
  rw [View.set_slice_whole, Rect.mem_set_unit]
  exact Iff.rfl

/-- Every entry (b, l, c) lies in the block of the point (b, l / 128). -/
theorem col_cover (i : S4x512x48.Idx) : ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 48 := (i 2).isLt
  obtain ⟨t, ht3, ht4⟩ := block_onto ⟨(i 0).val, h0⟩ ⟨(i 1).val / 128, by omega⟩
  have q0 : win0_4.index t (0 : Fin 3) = (i 0).val := congrFun ht4 0
  have q1 : win0_4.index t (1 : Fin 3) = (i 1).val / 128 := congrFun ht4 1
  have q2 : win0_4.index t (2 : Fin 3) = 0 := congrFun ht4 2
  refine ⟨t, flush0_4 t, ?_⟩
  rw [mem_col_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 48 ≤ (i 2).val ∧ (i 2).val < win0_4.index t (2 : Fin 3) * 48 + 48; omega

/-- After the call the second projection's array holds `projArr` of the hidden states and the second transposed weights. -/
theorem col_array (c : Dev nD) : (dat0 V c).arrAt 4 cfg0.N = projArr (V c main_arg0) (V c main_v3) :=
  (dat0 V c).arrAt_eq_of_cover 4 _ (fun t _ => flushed_col_eq V c t) col_cover

end Cert.KernelIdeal.PairHead

end
-- ==== Proof.BcastBody.lean ====
/-
  The broadcast-add call's body at one entry of its block.

  The body loads a block p of 128 rows of the first projection ([1, 128, 48]), one row q of 128 · 48 entries of the
  flattened second projection ([1, 1, 6144]) and the tiled bias β ([1, 6144]). It lays 128 copies of p side by
  side along the lanes, so that lane l of row r holds p[r, l mod 48]; adds q broadcast over the 128 rows; adds β
  broadcast over the rows; and stores the [128, 6144] sum as a [1, 128, 6144] block. Entry (r, l) of what is
  stored is therefore (p[0, r, l mod 48] + q[0, 0, l]) + β[0, l].
-/
import proofs.«142698_j15977278341601_2_alg».proof.Proof.Gen.KernelIdeal.Skeleton
import Idealize.ShloMosaic.Lib.Pipeline.Value
import Idealize.ShloMosaic.Lib.ValueLayout
import Idealize.ShloMosaic.Lib.ValueIdx

set_option maxRecDepth 16384

noncomputable section

namespace Cert.KernelIdeal.PairHead

open Cert.KernelIdeal Cert.KernelIdeal.Gen Idealize.ShloMosaic Idealize.ShloMosaic.ValueIdx

/-- A sum of three vectors, grouped to the left, at an index. -/
theorem add3_apply {s : Shape} (a b c : FVec Ideal s .f32) (i : s.Idx) : addf (addf a b) c i = (a i + b i) + c i := rfl

/-- 128 copies of a [128, 48] matrix side by side: lane l of row r is the matrix at (r, l mod 48). -/
theorem tile_lanes_apply (v : FVec Ideal S128x48 .f32)
    (h : Shape.Concatenates ((List.replicate 128 (⟨S128x48, v⟩ : (s : Shape) × (s.Idx → Ideal .f32))).map (·.1)) S128x6144 1)
    (r : Fin 128) (l : Fin 6144) :
    concatenate S128x6144 1 (List.replicate 128 (⟨S128x48, v⟩ : (s : Shape) × (s.Idx → Ideal .f32))) h (ix2 r l)
      = v (ix2 r ⟨l.val % 48, Nat.mod_lt _ (by decide)⟩) := by
  refine concatenate_replicate_apply (t := S128x6144) (s₁ := S128x48) (1 : Fin 2) 128 v h rfl (ix2 r l) (ix2 r ⟨l.val % 48, Nat.mod_lt _ (by decide)⟩) ?_ ?_
  · rfl
  · intro b hb
    match b with
    | ⟨0, _⟩ => rfl
    | ⟨1, _⟩ => exact absurd rfl hb

/-- Entry (r, l) of the stored block. -/
theorem bcast_payload (p : Vec Ideal S1x128x48 .f32) (q : Vec Ideal S1x1x6144 .f32) (β : Vec Ideal S1x6144 .f32)
    (u : Fin 1) (r : Fin 128) (l : Fin 6144) :
    k1_pay1 (F := Ideal) p q β (ix3 u r l)
      = (p (ix3 (0 : Fin 1) r ⟨l.val % 48, Nat.mod_lt _ (by decide)⟩) + q (ix3 (0 : Fin 1) (0 : Fin 1) l)) + β (ix2 (0 : Fin 1) l) := by
  unfold k1_pay1
  refine (shapeCast_ab_1ab_apply _ _ u r l).trans ?_
  refine (add3_apply _ _ _ (ix2 r l)).trans ?_
  refine congrArg₂ (· + ·) (congrArg₂ (· + ·) ?_ ?_) ?_
  · refine (tile_lanes_apply (shapeCast S128x48 p shapeCasts_S1x128x48_S128x48) _ r l).trans ?_
    exact shapeCast_1ab_ab_apply p _ r _
  · refine (broadcastTo_1b_ab_apply _ _ r l).trans ?_
    rw [shapeCast_self]
    exact shapeCast_1ab_ab_apply q _ (0 : Fin 1) l
  · refine (broadcastTo_1b_ab_apply _ _ r l).trans ?_
    rw [shapeCast_self, shapeCast_self]

end Cert.KernelIdeal.PairHead

end
-- ==== Proof.BcastArray.lean ====
/-
  The broadcast-add call: from what each grid point writes back to the whole array.

  The call runs over 4 × 4 × 4 points; point (b, i, j) stages rows 128·i … of batch b of the first projection, the
  entries 6144·j … 6144·j + 6143 of batch b of the flattened second projection, and the tiled bias whole, and writes
  back rows 128·i …, lanes 6144·j … of batch b of the output. By the body's entry formula the block written back is
  the corresponding block of ONE whole-array function,

      pairArr p q β [b, l, n] = (p[b, l, n mod 48] + q[b, 0, n]) + β[0, n mod 6144]

  (6144 = 128 · 48, so a lane's class inside its block is its class in the array), and the sixty-four blocks tile
  the [4, 512, 24576] array, so after the call the output array is that function of the three arrays the call is
  entered with.
-/
import proofs.«142698_j15977278341601_2_alg».proof.Proof.Gen.KernelIdeal.Frame
import proofs.«142698_j15977278341601_2_alg».proof.Proof.BcastBody

set_option maxRecDepth 16384

noncomputable section

namespace Cert.KernelIdeal.PairHead

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The first projection over the rows, the flattened second projection over the lanes, the tiled bias. -/
def pairArr (p : S4x512x48.Idx → EReal) (q : S4x1x24576.Idx → EReal) (β : S1x6144.Idx → EReal) : S4x512x24576.Idx → EReal :=
  fun i => (p (ix3 (i 0) (i 1) ⟨(i 2).val % 48, Nat.mod_lt _ (by decide)⟩) + q (ix3 (i 0) (0 : Fin 1) (i 2)))
    + β (ix2 (0 : Fin 1) ⟨(i 2).val % 6144, Nat.mod_lt _ (by decide)⟩)

theorem zeros3' : (![0, 0, 0] : Fin 3 → Nat) = fun _ => 0 := funext fun a => by fin_cases a <;> rfl
theorem zeros2' : (![0, 0] : Fin 2 → Nat) = fun _ => 0 := funext fun a => by fin_cases a <;> rfl

/-- The body's entry formula at an index of the stored block given as a whole. -/
theorem bcast_payload_idx (P : Vec Ideal S1x128x48 .f32) (Q : Vec Ideal S1x1x6144 .f32) (B : Vec Ideal S1x6144 .f32) (j : S1x128x6144.Idx) :
    k1_pay1 (F := Ideal) P Q B j
      = (P (ix3 (0 : Fin 1) (j 1) ⟨(j 2).val % 48, Nat.mod_lt _ (by decide)⟩) + Q (ix3 (0 : Fin 1) (0 : Fin 1) (j 2))) + B (ix2 (0 : Fin 1) (j 2)) :=
  (congrArg (k1_pay1 (F := Ideal) P Q B) (eq_ix3 j)).trans (bcast_payload P Q B (j 0) (j 1) (j 2))

/-- A stored block's entry is the whole-array function's entry as soon as the three loaded blocks read the three
    arrays where the whole-array function does. -/
theorem block_entry_eq (P : Vec Ideal S1x128x48 .f32) (Q : Vec Ideal S1x1x6144 .f32) (B : Vec Ideal S1x6144 .f32)
    (p : S4x512x48.Idx → EReal) (q : S4x1x24576.Idx → EReal) (β : S1x6144.Idx → EReal) (j : S1x128x6144.Idx) (i : S4x512x24576.Idx)
    (hP : P (ix3 (0 : Fin 1) (j 1) ⟨(j 2).val % 48, Nat.mod_lt _ (by decide)⟩) = p (ix3 (i 0) (i 1) ⟨(i 2).val % 48, Nat.mod_lt _ (by decide)⟩))
    (hQ : Q (ix3 (0 : Fin 1) (0 : Fin 1) (j 2)) = q (ix3 (i 0) (0 : Fin 1) (i 2)))
    (hB : B (ix2 (0 : Fin 1) (j 2)) = β (ix2 (0 : Fin 1) ⟨(i 2).val % 6144, Nat.mod_lt _ (by decide)⟩)) :
    k1_pay1 (F := Ideal) P Q B j = pairArr p q β i := by
  rw [bcast_payload_idx, hP, hQ, hB]
  rfl

/-- The printed index maps over the grid: the first projection's block moves with the output block on the batch and
    row-block axes, the second projection's on the batch and lane-block axes, the bias stays. -/
theorem pair_index_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = win1_3.index t (2 : Fin 3)
    ∧ win1_2.index t (0 : Fin 2) = 0 ∧ win1_2.index t (1 : Fin 2) = 0 :=
  (by decide +kernel : ∀ t : Fin grid1.N, _)

/-- Every (batch, row block, lane block) is some point's. -/
theorem pair_onto : ∀ (q0 : Fin 4) (q1 : Fin 4) (q2 : Fin 4), ∃ t : Fin cfg1.N, win1_3.index t = ![q0.val, q1.val, q2.val] :=
  (by decide +kernel : ∀ (q0 : Fin 4) (q1 : Fin 4) (q2 : Fin 4), ∃ t : Fin grid1.N, win1_3.index t = ![q0.val, q1.val, q2.val])

/-- What point `t` writes back is block `t` of `pairArr` of the three arrays as the call finds them. -/
theorem flushed_pair_eq (c : Dev nD) (t : Fin cfg1.N) :
    (dat1 V c).flushed 3 t = ((cfg1.win 3).blk t).view.read (Elt Ideal) (pairArr (V c main_v4_0) (V c main_v5) (V c main_v9)) := by
  show (cfg1.win 3).cut (grid1.coords t) ((dat1 V c).after 3 t) = _
  rw [after1_3]
  unfold out1_3
  rw [View.canon_unit_zero zeros3']
  simp only [View.ld_unit_zero (S := S1x128x48) zeros3', View.ld_unit_zero (S := S1x1x6144) zeros3', View.ld_unit_zero (S := S1x6144) zeros2']
  obtain ⟨e00, e01, e02, e10, e11, e12, e20, e21⟩ := pair_index_facts t
  funext j
  show k1_pay1 (iblk1 V c 0 t) (iblk1 V c 1 t) (iblk1 V c 2 t) j
    = pairArr (V c main_v4_0) (V c main_v5) (V c main_v9) (((cfg1.win 3).blk t).view.emb j)
  have hj0 : (j 0).val < 1 := (j 0).isLt
  have hj2 : (j 2).val < 6144 := (j 2).isLt
  refine block_entry_eq (iblk1 V c 0 t) (iblk1 V c 1 t) (iblk1 V c 2 t) (V c main_v4_0) (V c main_v5) (V c main_v9) j
    (((cfg1.win 3).blk t).view.emb j) ?_ ?_ ?_
  · show V c main_v4_0 (((cfg1.win 0).blk t).view.emb (ix3 (0 : Fin 1) (j 1) ⟨(j 2).val % 48, Nat.mod_lt _ (by decide)⟩)) = _
    refine congrArg (V c main_v4_0) (funext fun a => Fin.ext ?_)
    match a with
    | ⟨0, _⟩ => show win1_0.index t (0 : Fin 3) * 1 + 1 * 0 = win1_3.index t (0 : Fin 3) * 1 + 1 * (j 0).val; omega
    | ⟨1, _⟩ => show win1_0.index t (1 : Fin 3) * 128 + 1 * (j 1).val = win1_3.index t (1 : Fin 3) * 128 + 1 * (j 1).val; omega
    | ⟨2, _⟩ => show win1_0.index t (2 : Fin 3) * 48 + 1 * ((j 2).val % 48) = (win1_3.index t (2 : Fin 3) * 6144 + 1 * (j 2).val) % 48; omega
  · show V c main_v5 (((cfg1.win 1).blk t).view.emb (ix3 (0 : Fin 1) (0 : Fin 1) (j 2))) = _
    refine congrArg (V c main_v5) (funext fun a => Fin.ext ?_)
    match a with
    | ⟨0, _⟩ => show win1_1.index t (0 : Fin 3) * 1 + 1 * 0 = win1_3.index t (0 : Fin 3) * 1 + 1 * (j 0).val; omega
    | ⟨1, _⟩ => show win1_1.index t (1 : Fin 3) * 1 + 1 * 0 = 0; omega
    | ⟨2, _⟩ => show win1_1.index t (2 : Fin 3) * 6144 + 1 * (j 2).val = win1_3.index t (2 : Fin 3) * 6144 + 1 * (j 2).val; omega
  · show V c main_v9 (((cfg1.win 2).blk t).view.emb (ix2 (0 : Fin 1) (j 2))) = _
    refine congrArg (V c main_v9) (funext fun a => Fin.ext ?_)
    match a with
    | ⟨0, _⟩ => show win1_2.index t (0 : Fin 2) * 1 + 1 * 0 = 0; omega
    | ⟨1, _⟩ => show win1_2.index t (1 : Fin 2) * 6144 + 1 * (j 2).val = (win1_3.index t (2 : Fin 3) * 6144 + 1 * (j 2).val) % 6144; omega

/-- An index of the output array is in point `t`'s block iff each coordinate is in the block's range on its axis. -/
theorem mem_pair_block (t : Fin cfg1.N) (i : S4x512x24576.Idx) :
    i ∈ ((cfg1.win 3).blk t).view.set ↔ ∀ a : Fin 3, win1_3.index t a * S1x128x6144.size a ≤ (i a).val ∧ (i a).val < win1_3.index t a * S1x128x6144.size a + S1x128x6144.size a := by
  show i ∈ ((View.whole main_v10).slice (win1_3.rect t)).set ↔ _
  rw [View.set_slice_whole, Rect.mem_set_unit]
  exact Iff.rfl

/-- Every entry (b, l, n) lies in the block of the point (b, l / 128, n / 6144). -/
theorem pair_cover (i : S4x512x24576.Idx) : ∃ t : Fin cfg1.N, (cfg1.win 3).flush t = true ∧ i ∈ ((cfg1.win 3).blk t).view.set := by
  have h0 : (i 0).val < 4 := (i 0).isLt
  have h1 : (i 1).val < 512 := (i 1).isLt
  have h2 : (i 2).val < 24576 := (i 2).isLt
  obtain ⟨t, ht⟩ := pair_onto ⟨(i 0).val, h0⟩ ⟨(i 1).val / 128, by omega⟩ ⟨(i 2).val / 6144, by omega⟩
  have q0 : win1_3.index t (0 : Fin 3) = (i 0).val := congrFun ht 0
  have q1 : win1_3.index t (1 : Fin 3) = (i 1).val / 128 := congrFun ht 1
  have q2 : win1_3.index t (2 : Fin 3) = (i 2).val / 6144 := congrFun ht 2
  refine ⟨t, flush1_3 t, ?_⟩
  rw [mem_pair_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 6144 ≤ (i 2).val ∧ (i 2).val < win1_3.index t (2 : Fin 3) * 6144 + 6144; omega

/-- After the call the output array holds `pairArr` of the three arrays the call was entered with. -/
theorem pair_array (c : Dev nD) : (dat1 V c).arrAt 3 cfg1.N = pairArr (V c main_v4_0) (V c main_v5) (V c main_v9) :=
  (dat1 V c).arrAt_eq_of_cover 3 _ (fun t _ => flushed_pair_eq V c t) pair_cover

end Cert.KernelIdeal.PairHead

end
-- ==== Proof.Spec.lean ====
/-
  The pairwise classifier head as one function of its three arguments.

  For hidden states `x` (4 batches of 512 rows of 768 features), a weight matrix `w` of 48 rows whose 1536
  columns are the weights of the row feature followed by the weights of the column feature, and a bias `β` of 48
  entries, the logit at batch `b`, row `i`, column `j`, class `c` is

      (∑ₖ x[b, i, k] · w[c, k]  +  ∑ₖ x[b, j, k] · w[c, 768 + k])  +  β[c],

  the two sums over the 768 features, read over the extended reals.
-/
import Idealize.ShloMosaic.PureOps.Ideal
import Idealize.ShloMosaic.Lib.ValueIdx

noncomputable section

namespace Cert.PairHead

open Idealize.ShloMosaic Idealize.ShloMosaic.ValueIdx
open scoped BigOperators

/-- Row `l` of batch `b` against row `c` of the first 768 columns of the weights. -/
def rowProj (x : (⟨3, ![4, 512, 768]⟩ : Shape).Idx → EReal) (w : (⟨2, ![48, 1536]⟩ : Shape).Idx → EReal)
    (b : Fin 4) (l : Fin 512) (c : Fin 48) : EReal :=
  ∑ k : Fin 768, x (ix3 b l k) * w (ix2 c ⟨k.val, by have := k.isLt; omega⟩)

/-- Row `l` of batch `b` against row `c` of the last 768 columns of the weights. -/
def colProj (x : (⟨3, ![4, 512, 768]⟩ : Shape).Idx → EReal) (w : (⟨2, ![48, 1536]⟩ : Shape).Idx → EReal)
    (b : Fin 4) (l : Fin 512) (c : Fin 48) : EReal :=
  ∑ k : Fin 768, x (ix3 b l k) * w (ix2 c ⟨768 + k.val, by have := k.isLt; omega⟩)

/-- The logits: the row's projection plus the column's, plus the bias of the class. -/
def logits (x : (⟨3, ![4, 512, 768]⟩ : Shape).Idx → EReal) (w : (⟨2, ![48, 1536]⟩ : Shape).Idx → EReal)
    (β : (⟨1, ![48]⟩ : Shape).Idx → EReal) : (⟨4, ![4, 512, 512, 48]⟩ : Shape).Idx → EReal := fun i =>
  (rowProj x w (i 0) (i 1) (i 3) + colProj x w (i 0) (i 2) (i 3)) + β (ix1 (i 3))

end Cert.PairHead

end
-- ==== Proof.Result.lean ====
/-
  The kernel's result is the specification's logits.

  Reading the result at (b, r, s, c): the final reshape reads the second call's output at (b, r, 48·s + c); there
  the output is the first projection at (b, r, (48·s + c) mod 48) = (b, r, c), plus the flattened second projection
  at (b, 0, 48·s + c), which the flattening reads at (b, s, c), plus the tiled bias at lane (48·s + c) mod 6144,
  which the tiling reads at class c. Each projection is the hidden states' row against a row of the weights' half
  (the transposed slice read back), so the three terms are the specification's, in the same grouping.
-/
import proofs.«142698_j15977278341601_2_alg».proof.Proof.HostStages
import proofs.«142698_j15977278341601_2_alg».proof.Proof.ProjArray
import proofs.«142698_j15977278341601_2_alg».proof.Proof.BcastArray
import proofs.«142698_j15977278341601_2_alg».proof.Proof.Spec
import Idealize.ShloMosaic.Lib.ValueLayout

set_option maxRecDepth 16384

noncomputable section

namespace Cert.KernelIdeal.PairHead

open Idealize.ShloMosaic Idealize.ShloMosaic.TcCoe Idealize.ShloMosaic.ValueIdx
open Idealize.SL Idealize.SL.Sem
open Cert.KernelIdeal Cert.KernelIdeal.Gen
open Cert.PairHead (rowProj colProj logits)
open scoped BigOperators

variable (m : (ℓ : Loc nD τ sig) → Buf (Elt Ideal) ℓ) (ρ : Dev nD → PrngReg)

/-! ## The weights as the projection call finds them -/

/-- The first transposed weights at (feature, class): the weights at (class, feature). -/
theorem wrow_entry (c : Dev nD) (k : Fin 768) (cls : Fin 48) :
    V1 m ρ c main_v2 (ix2 k cls) = m ((c : Thread nD τ).loc main_arg1) (ix2 cls ⟨k.val, by have := k.isLt; omega⟩) := by
  rw [wrow_at_proj]
  refine (transpose_ix2_apply _ _ k cls).trans ?_
  exact extractStridedSlice_apply (s := S48x1536) (t := S48x768) ![0, 0] (m ((c : Thread nD τ).loc main_arg1)) slices_S48x1536_S48x768_0_0
    (ix2 cls k) (ix2 cls ⟨k.val, by have := k.isLt; omega⟩) (fun a => match a with
    | ⟨0, _⟩ => by show cls.val = 0 + cls.val; omega
    | ⟨1, _⟩ => by show k.val = 0 + k.val; omega)

/-- The second transposed weights at (feature, class): the weights at (class, 768 + feature). -/
theorem wcol_entry (c : Dev nD) (k : Fin 768) (cls : Fin 48) :
    V1 m ρ c main_v3 (ix2 k cls) = m ((c : Thread nD τ).loc main_arg1) (ix2 cls ⟨768 + k.val, by have := k.isLt; omega⟩) := by
  rw [wcol_at_proj]
  refine (transpose_ix2_apply _ _ k cls).trans ?_
  exact extractStridedSlice_apply (s := S48x1536) (t := S48x768) ![0, 768] (m ((c : Thread nD τ).loc main_arg1)) slices_S48x1536_S48x768_0_768
    (ix2 cls k) (ix2 cls ⟨768 + k.val, by have := k.isLt; omega⟩) (fun a => match a with
    | ⟨0, _⟩ => by show cls.val = 0 + cls.val; omega
    | ⟨1, _⟩ => by show 768 + k.val = 768 + k.val; omega)

/-- Hidden states against transposed weights that read the first half of `w`: the specification's first projection. -/
theorem projArr_rowProj (x : S4x512x768.Idx → EReal) (wT : S768x48.Idx → EReal) (w : S48x1536.Idx → EReal)
    (h : ∀ (k : Fin 768) (cls : Fin 48), wT (ix2 k cls) = w (ix2 cls ⟨k.val, by have := k.isLt; omega⟩))
    (b : Fin 4) (r : Fin 512) (cls : Fin 48) : projArr x wT (ix3 b r cls) = rowProj x w b r cls :=
  Finset.sum_congr rfl fun k _ => congrArg₂ (· * ·) rfl (h k cls)

/-- Hidden states against transposed weights that read the second half of `w`: the specification's second projection. -/
theorem projArr_colProj (x : S4x512x768.Idx → EReal) (wT : S768x48.Idx → EReal) (w : S48x1536.Idx → EReal)
    (h : ∀ (k : Fin 768) (cls : Fin 48), wT (ix2 k cls) = w (ix2 cls ⟨768 + k.val, by have := k.isLt; omega⟩))
    (b : Fin 4) (r : Fin 512) (cls : Fin 48) : projArr x wT (ix3 b r cls) = colProj x w b r cls :=
  Finset.sum_congr rfl fun k _ => congrArg₂ (· * ·) rfl (h k cls)

/-! ## The three arrays the broadcast-add call finds -/

/-- The first projection at (b, r, c). -/
theorem rowproj_entry (c : Dev nD) (b : Fin 4) (r : Fin 512) (cls : Fin 48) :
    V3 m ρ c main_v4_0 (ix3 b r cls)
      = rowProj (m ((c : Thread nD τ).loc main_arg0)) (m ((c : Thread nD τ).loc main_arg1)) b r cls := by
  rw [rowproj_at_pair, row_array, hidden_at_proj]
  exact projArr_rowProj _ _ _ (wrow_entry m ρ c) b r cls

/-- The flattened second projection at (b, 0, 48·s + c): the second projection at (b, s, c). -/
theorem colproj_entry (c : Dev nD) (b : Fin 4) (s : Fin 512) (cls : Fin 48) :
    V3 m ρ c main_v5 (ix3 b (0 : Fin 1) (⟨48 * s.val + cls.val, by have := s.isLt; have := cls.isLt; omega⟩ : Fin 24576))
      = colProj (m ((c : Thread nD τ).loc main_arg0)) (m ((c : Thread nD τ).loc main_arg1)) b s cls := by
  rw [colflat_at_pair]
  refine (shapeCast_apply _ _ _ (ix3 b s cls) ?_).trans ?_
  · rw [Shape.rowMajor_val_three, Shape.rowMajor_val_three]
    show (b.val * 512 + s.val) * 48 + cls.val = (b.val * 1 + 0) * 24576 + (48 * s.val + cls.val)
    omega
  · rw [col_array, hidden_at_proj]
    exact projArr_colProj _ _ _ (wcol_entry m ρ c) b s cls

/-- The tiled bias at lane l: the bias of class l mod 48. -/
theorem bias_entry (c : Dev nD) (l : Fin 6144) :
    V3 m ρ c main_v9 (ix2 (0 : Fin 1) l)
      = m ((c : Thread nD τ).loc main_arg2) (ix1 (⟨l.val % 48, Nat.mod_lt _ (by decide)⟩ : Fin 48)) := by
  rw [biastile_at_pair]
  have hl := l.isLt
  refine (shapeCast_apply _ _ _ (ix4 (0 : Fin 1) (0 : Fin 1) (⟨l.val / 48, by omega⟩ : Fin 128) (⟨l.val % 48, Nat.mod_lt _ (by decide)⟩ : Fin 48)) ?_).trans ?_
  · rw [Shape.rowMajor_val_four, Shape.rowMajor_val_two]
    show ((0 * 1 + 0) * 128 + l.val / 48) * 48 + l.val % 48 = 0 * 6144 + l.val
    omega
  refine (broadcastInDim_apply _ _ _ _ (ix4 (0 : Fin 1) (0 : Fin 1) (0 : Fin 1) (⟨l.val % 48, Nat.mod_lt _ (by decide)⟩ : Fin 48)) (fun a => match a with
    | ⟨0, _⟩ => (if_pos rfl).symm
    | ⟨1, _⟩ => (if_pos rfl).symm
    | ⟨2, _⟩ => (if_pos rfl).symm
    | ⟨3, _⟩ => by show l.val % 48 = if (48 : Nat) = 1 then 0 else l.val % 48; rw [if_neg (by decide)])).trans ?_
  refine (shapeCast_apply _ _ _ (ix2 (0 : Fin 1) (⟨l.val % 48, Nat.mod_lt _ (by decide)⟩ : Fin 48)) ?_).trans ?_
  · rw [Shape.rowMajor_val_two, Shape.rowMajor_val_four]
    show 0 * 48 + l.val % 48 = ((0 * 1 + 0) * 1 + 0) * 48 + l.val % 48
    omega
  refine shapeCast_apply _ _ _ (ix1 (⟨l.val % 48, Nat.mod_lt _ (by decide)⟩ : Fin 48)) ?_
  rw [Shape.rowMajor_val_one, Shape.rowMajor_val_two]
  show l.val % 48 = 0 * 48 + l.val % 48
  omega

/-! ## The result -/

/-- The output of the broadcast-add call at (b, r, n), spelt out. -/
theorem pairArr_entry (p : S4x512x48.Idx → EReal) (q : S4x1x24576.Idx → EReal) (β : S1x6144.Idx → EReal)
    (b : Fin 4) (r : Fin 512) (n : Fin 24576) :
    pairArr p q β (ix3 b r n)
      = (p (ix3 b r ⟨n.val % 48, Nat.mod_lt _ (by decide)⟩) + q (ix3 b (0 : Fin 1) n)) + β (ix2 (0 : Fin 1) ⟨n.val % 6144, Nat.mod_lt _ (by decide)⟩) := rfl

/-- The kernel's result buffer, at the last boundary, holds the specification's logits of the launched arguments. -/
theorem result_eq_logits (c : Dev nD) :
    W5 m ρ c (Proc.devRef .tc main_v11)
      = logits (m ((c : Thread nD τ).loc main_arg0)) (m ((c : Thread nD τ).loc main_arg1)) (m ((c : Thread nD τ).loc main_arg2)) := by
  rw [result_at_exit, pair_array]
  funext i
  obtain ⟨b, r, s, cls, rfl⟩ : ∃ (b : Fin 4) (r : Fin 512) (s : Fin 512) (cls : Fin 48), i = ix4 b r s cls :=
    ⟨i 0, i 1, i 2, i 3, eq_ix4 i⟩
  have hs := s.isLt
  have hc := cls.isLt
  refine (shapeCast_apply _ _ _ (ix3 b r (⟨48 * s.val + cls.val, by omega⟩ : Fin 24576)) ?_).trans ?_
  · rw [Shape.rowMajor_val_three, Shape.rowMajor_val_four]
    show (b.val * 512 + r.val) * 24576 + (48 * s.val + cls.val) = ((b.val * 512 + r.val) * 512 + s.val) * 48 + cls.val
    omega
  refine (pairArr_entry _ _ _ b r _).trans ?_
  refine congrArg₂ (· + ·) (congrArg₂ (· + ·) ?_ ?_) ?_
  · have e : (⟨(48 * s.val + cls.val) % 48, Nat.mod_lt _ (by decide)⟩ : Fin 48) = cls := Fin.ext (by show (48 * s.val + cls.val) % 48 = cls.val; omega)
    exact (congrArg (fun z => V3 m ρ c main_v4_0 (ix3 b r z)) e).trans (rowproj_entry m ρ c b r cls)
  · exact colproj_entry m ρ c b s cls
  · refine (bias_entry m ρ c _).trans ?_
    exact congrArg (fun z => m ((c : Thread nD τ).loc main_arg2) (ix1 z))
      (Fin.ext (by show (48 * s.val + cls.val) % 6144 % 48 = cls.val; omega))

end Cert.KernelIdeal.PairHead

end
-- ==== Proof.RefIsSpec.lean ====
/-
  The reference computes the logits of `Spec`.

  Its program slices the weights into their two halves, contracts the hidden states' features against each
  half (two `dot_general`s over the last axis of both operands), lays the first projection out over the columns
  and the second over the rows by broadcasts through a unit axis, adds them, and adds the bias broadcast from
  the class axis. Read at one index every layout operation names one coordinate tuple of its operand, and the
  composition of those tuples is the index the specification reads: the two sums and the bias entry agree term
  by term.
-/
import proofs.«142698_j15977278341601_2_alg».proof.Proof.Gen.ReferenceIdeal.Read
import proofs.«142698_j15977278341601_2_alg».proof.Proof.Spec

noncomputable section

namespace Cert.ReferenceIdeal.PairHead

open Cert.ReferenceIdeal Cert.ReferenceIdeal.Read Idealize.ShloMosaic Idealize.ShloMosaic.ValueIdx Cert.PairHead
open scoped BigOperators

/-- The first projection's left operand, through the two broadcasts: batch, row, feature. -/
theorem lhs_row (i : S4x512x512x48.Idx) (k : Fin 768) :
    lidx_main_v2 (idx_main_v4 (idx_main_v6 i)) k = ix3 (i 0) (i 1) k :=
  funext fun a => Fin.ext (by match a with | ⟨0, _⟩ => rfl | ⟨1, _⟩ => rfl | ⟨2, _⟩ => rfl)

/-- Its right operand, through the slice of the first half: class, feature. -/
theorem rhs_row (i : S4x512x512x48.Idx) (k : Fin 768) :
    idx_main_v0 (ridx_main_v2 (idx_main_v4 (idx_main_v6 i)) k) = ix2 (i 3) ⟨k.val, by have := k.isLt; omega⟩ :=
  funext fun a => Fin.ext (by match a with | ⟨0, _⟩ => rfl | ⟨1, _⟩ => rfl)

/-- The second projection's left operand: batch, column, feature. -/
theorem lhs_col (i : S4x512x512x48.Idx) (k : Fin 768) :
    lidx_main_v3 (idx_main_v5 (idx_main_v7 i)) k = ix3 (i 0) (i 2) k :=
  funext fun a => Fin.ext (by match a with | ⟨0, _⟩ => rfl | ⟨1, _⟩ => rfl | ⟨2, _⟩ => rfl)

/-- Its right operand, through the slice of the second half: class, 768 + feature. -/
theorem rhs_col (i : S4x512x512x48.Idx) (k : Fin 768) :
    idx_main_v1 (ridx_main_v3 (idx_main_v5 (idx_main_v7 i)) k) = ix2 (i 3) ⟨768 + k.val, by have := k.isLt; omega⟩ :=
  funext fun a => Fin.ext (by match a with | ⟨0, _⟩ => rfl | ⟨1, _⟩ => rfl)

/-- The bias entry, through its two broadcasts: the class. -/
theorem bias_idx (i : S4x512x512x48.Idx) : idx_main_v9 (idx_main_v10 i) = ix1 (i 3) :=
  funext fun a => Fin.ext (by match a with | ⟨0, _⟩ => rfl)

/-- The reference's last stage is the specification's logits of the three arguments. -/
theorem result_eq_logits (x0 : (⟨S4x512x768, .f32⟩ : BufTy).Contents (Elt Ideal)) (x1 : (⟨S48x1536, .f32⟩ : BufTy).Contents (Elt Ideal))
    (x2 : (⟨S48, .f32⟩ : BufTy).Contents (Elt Ideal)) :
    val_main_v11 (F := Ideal) x0 x1 x2 = logits x0 x1 x2 := by
  funext i
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, lhs_row, rhs_row, lhs_col, rhs_col, bias_idx]
  rfl

end Cert.ReferenceIdeal.PairHead

end
-- ==== Proof.lean ====
/-
  A pairwise classifier head computed by two Pallas calls equals its einsum reference over the extended reals.

  Both programs compute, for hidden states x[b, l, k] (4 × 512 × 768), weights w[c, n] (48 × 1536) and a bias β[c],

      logits[b, i, j, c] = (∑ₖ x[b, i, k] · w[c, k]  +  ∑ₖ x[b, j, k] · w[c, 768 + k])  +  β[c].

  The reference contracts x against the two halves of w, broadcasts the first projection over the columns j and
  the second over the rows i, adds them and adds the bias. The kernel transposes the two halves of w, computes both
  projections in one call (a plain matrix product of a 128-row block of x with each 768 × 48 half, into a zero
  accumulator; the bf16 roundings on the way in are the identity here), flattens the second projection so that lane
  48·j + c of batch b holds entry (b, j, c), tiles the bias along the lanes, and in a second call fills a
  [4, 512, 512·48] array block by block with (first projection repeated along the lanes + the flattened second
  projection broadcast over the rows) + the tiled bias; one reshape gives the result. Index by index the two
  results are the same three terms in the same grouping, so no algebraic law beyond 0 + a = a is needed and the
  inputs' finiteness is never used.

  The frames are the generated frame certificates (the reference's is its run with the result dropped); the kernel
  is its own idealization (the ideal pass rewrote nothing); the value claim pairs the kernel's run, its result named
  at the last boundary of @main's segments, with the reference's run read one operation at a time.
-/
import proofs.«142698_j15977278341601_2_alg».proof.Defs
import proofs.«142698_j15977278341601_2_alg».proof.Proof.Gen.Kernel
import proofs.«142698_j15977278341601_2_alg».proof.Proof.Gen.Kernel.Skeleton
import proofs.«142698_j15977278341601_2_alg».proof.Proof.Gen.Kernel.Launch
import proofs.«142698_j15977278341601_2_alg».proof.Proof.Gen.Kernel.Points
import proofs.«142698_j15977278341601_2_alg».proof.Proof.Gen.Kernel.Frame
import proofs.«142698_j15977278341601_2_alg».proof.Proof.Gen.KernelIdeal
import proofs.«142698_j15977278341601_2_alg».proof.Proof.Gen.KernelIdeal.Skeleton
import proofs.«142698_j15977278341601_2_alg».proof.Proof.Gen.KernelIdeal.Launch
import proofs.«142698_j15977278341601_2_alg».proof.Proof.Gen.KernelIdeal.Points
import proofs.«142698_j15977278341601_2_alg».proof.Proof.Gen.KernelIdeal.Frame
import proofs.«142698_j15977278341601_2_alg».proof.Proof.Gen.ReferenceIdeal
import proofs.«142698_j15977278341601_2_alg».proof.Proof.Gen.Pre_finite_inputs
import proofs.«142698_j15977278341601_2_alg».proof.Proof.Gen.ReferenceIdeal.Run
import proofs.«142698_j15977278341601_2_alg».proof.Proof.Gen.ReferenceIdeal.Read
import proofs.«142698_j15977278341601_2_alg».proof.Proof.KernelRun
import proofs.«142698_j15977278341601_2_alg».proof.Proof.Result
import proofs.«142698_j15977278341601_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the logits of those arguments. -/
theorem algebraic : Cert.algebraic_KernelIdeal_ReferenceIdeal := by
  intro m ρ m' ρ' _ hagree
  refine ⟨fun c => Cert.PairHead.logits (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.PairHead.result_eq_logits m ρ c), (h c).2⟩)
      (Cert.KernelIdeal.PairHead.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v11_eq _ _ _).trans (Cert.ReferenceIdeal.PairHead.result_eq_logits _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
